-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x1024 : Shape := ⟨3, ![1, 4096, 1024]⟩
abbrev S4096x1024 : Shape := ⟨2, ![4096, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S1x4096x1024 .f32) (main_arg1 : FVec F S1x4096x1024 .f32) (main_arg2 : FVec F S4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S1x4096x1024 : Shape := ⟨3, ![1, 4096, 1024]⟩
abbrev S4096x1024 : Shape := ⟨2, ![4096, 1024]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1x4096x1024_S4096x1024 : S1x4096x1024.ShapeCasts S4096x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  broadcasts_S512x1_S512x1024 : S512x1.Broadcasts S512x1024
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x4096x1024 : Shape := ⟨3, ![1, 4096, 1024]⟩
abbrev S4096x1024 : Shape := ⟨2, ![4096, 1024]⟩
abbrev S1x4096x4096 : Shape := ⟨3, ![1, 4096, 4096]⟩
abbrev S_ : Shape := ⟨0, ![]⟩
abbrev S1x4096 : Shape := ⟨2, ![1, 4096]⟩
abbrev S1x4096x1 : Shape := ⟨3, ![1, 4096, 1]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4096x1024, .f32⟩
  | .hbm, ⟨3, _⟩ => ⟨S1x4096x4096, .f32⟩
  | .hbm, ⟨4, _⟩ => ⟨S_, .f32⟩
  | .hbm, ⟨5, _⟩ => ⟨S1x4096, .f32⟩
  | .hbm, ⟨6, _⟩ => ⟨S_, .f32⟩
  | .hbm, ⟨7, _⟩ => ⟨S1x4096, .f32⟩
  | .hbm, ⟨8, _⟩ => ⟨S1x4096, .f32⟩
  | .hbm, ⟨9, _⟩ => ⟨S1x4096x1, .f32⟩
  | .hbm, ⟨10, _⟩ => ⟨S1x4096x4096, .f32⟩
  | .hbm, ⟨11, _⟩ => ⟨S1x4096x4096, .f32⟩
  | .hbm, ⟨12, _⟩ => ⟨S1x4096x4096, .f32⟩
  | .hbm, ⟨13, _⟩ => ⟨S_, .f32⟩
  | .hbm, ⟨14, _⟩ => ⟨S1x4096, .f32⟩
  | .hbm, ⟨15, _⟩ => ⟨S1x4096x1, .f32⟩
  | .hbm, ⟨16, _⟩ => ⟨S1x4096x4096, .f32⟩
  | .hbm, ⟨17, _⟩ => ⟨S1x4096x4096, .f32⟩
  | .hbm, ⟨18, _⟩ => ⟨S4096x4096, .f32⟩
  | .hbm, ⟨19, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S1x4096x4096_S1x4096_d2 : S1x4096x4096.ReducesTo [2] S1x4096
  h_S_ : 0 < S_.numel
  bcast_S_S1x4096 : S_.BroadcastsInDim S1x4096 (![] : Fin 0 → Fin S1x4096.rank)
  bcast_S1x4096_S1x4096x1_0_1 : S1x4096.BroadcastsInDim S1x4096x1 (![0, 1] : Fin 2 → Fin S1x4096x1.rank)
  bcast_S1x4096x1_S1x4096x4096_0_1_2 : S1x4096x1.BroadcastsInDim S1x4096x4096 (![0, 1, 2] : Fin 3 → Fin S1x4096x4096.rank)
  shapeCasts_S1x4096x4096_S4096x4096 : S1x4096x4096.ShapeCasts S4096x4096
  dot_S1x4096x1024_S1x4096x1024_S1x4096x4096_2_2_1_1_0_0_wf : DotDims.WF S1x4096x1024 S1x4096x1024 S1x4096x4096 [2] [2] [1] [1] [0] [0]
  dot_S4096x4096_S4096x1024_S4096x1024_1_0_0_1_n_n_wf : DotDims.WF S4096x4096 S4096x1024 S4096x1024 [1] [0] [0] [1] [] []

variable [Facts₀]

def dot_S1x4096x1024_S1x4096x1024_S1x4096x4096_2_2_1_1_0_0 : DotDims S1x4096x1024 S1x4096x1024 S1x4096x4096 where
  lhsContracting := [2]
  rhsContracting := [2]
  lhsNonContracting := [1]
  rhsNonContracting := [1]
  lhsBatch := [0]
  rhsBatch := [0]
  wf := dot_S1x4096x1024_S1x4096x1024_S1x4096x4096_2_2_1_1_0_0_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Softmax.lean ====
/-
  The mathematics of a softmax-weighted sum accumulated block by block, for ONE query row and ONE output column.

  Keys are numbered by a natural number; key number `512 * b + k` is key `k` of block `b`.  For real scores
  `sc` and real values `vv` the weighted sum is

      target sc vv = (∑ k, exp (sc k) * vv k) / (∑ k, exp (sc k))            (4096 keys),

  the softmax of the scores applied to the values.  A softmax does not change when one number is subtracted from every
  score, so the same quantity is computed from the scores shifted by ANY real `M`.  The blockwise computation
  keeps, after `J` blocks, a shift `M` and the two sums

      Den = ∑ over the first J blocks of exp (sc - M),        Num = ∑ over the first J blocks of exp (sc - M) * vv,

  and moves the shift from `M` to a new `M'` by multiplying both sums by `exp (M - M')`, because
  `exp (M - M') * exp (s - M) = exp (s - M')`.  The shift it uses is a running maximum; for the result only the fact
  that the shift is a REAL number matters (so that every exponential is a positive real and the final division is a
  division of reals by a positive real).  Over the extended reals the very first shift is `-∞`, where
  `exp (-∞ - M') = 0` multiplies the zero sums.
-/
import Mathlib.Analysis.SpecialFunctions.Exp
import Mathlib.Data.Finset.Fold
import Idealize.ShloMosaic.PureOps.Ideal
import Idealize.ShloMosaic.PureOps.Ideal.Laws

noncomputable section

namespace Cert.Attention

open Idealize.ShloMosaic

/-! ## Extended reals that are real numbers -/

/-- A finite sum of real numbers, taken in the extended reals, is the real sum. -/
theorem coe_sum {ι : Type*} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The maximum, started from `-∞`, of a nonempty finite family of real numbers is a real number. -/
theorem fold_max_real {ι : Type*} (s : Finset ι) (hs : s.Nonempty) (f : ι → EReal) (hf : ∀ k ∈ s, ∃ r : ℝ, f k = r) :
    ∃ r : ℝ, s.fold max ⊥ f = (r : EReal) := by
  have h1 : s.fold max ⊥ f ≠ ⊤ := by
    apply ne_of_lt
    rw [Finset.fold_max_lt]
    exact ⟨bot_lt_top, fun x hx => by obtain ⟨r, hr⟩ := hf x hx; rw [hr]; exact EReal.coe_lt_top r⟩
  have h2 : s.fold max ⊥ f ≠ ⊥ := by
    apply ne_of_gt
    rw [Finset.lt_fold_max]
    obtain ⟨x, hx⟩ := hs
    exact Or.inr ⟨x, hx, by obtain ⟨r, hr⟩ := hf x hx; rw [hr]; exact EReal.bot_lt_coe r⟩
  exact ⟨(s.fold max ⊥ f).toReal, (EReal.coe_toReal h1 h2).symm⟩

/-- The exponential of a difference of reals is the real exponential. -/
theorem exp_sub_coe (a b : ℝ) : Ideal.exp ((a : EReal) - (b : EReal)) = ((Real.exp (a - b) : ℝ) : EReal) := by
  rw [← EReal.coe_sub]; rfl

/-- `exp (-∞ - b) = 0`. -/
theorem exp_bot_sub (b : ℝ) : Ideal.exp (⊥ - (b : EReal)) = 0 := by
  rw [EReal.bot_sub]; rfl

/-- The bit pattern of `-∞`, and of zero. -/
theorem ofBits_neg_inf : Ideal.ofBits .f32 0xFF800000#32 = ⊥ := by simp [Ideal.ofBits, Ideal.ieee]
theorem ofBits_zero : Ideal.ofBits .f32 0x00000000#32 = 0 := by simp [Ideal.ofBits, Ideal.ieee]
theorem ofBits_pos_inf : Ideal.ofBits .f32 0x7F800000#32 = ⊤ := by simp [Ideal.ofBits, Ideal.ieee]

/-! ## The running sums -/

/-- The normalizer over the first `J` blocks of 512 keys, the scores shifted by `M`. -/
def Den (sc : ℕ → ℝ) (M : ℝ) (J : ℕ) : ℝ :=
  ∑ b ∈ Finset.range J, ∑ k : Fin 512, Real.exp (sc (512 * b + k.val) - M)

/-- The weighted sum of the values over the first `J` blocks, the scores shifted by `M`. -/
def Num (sc vv : ℕ → ℝ) (M : ℝ) (J : ℕ) : ℝ :=
  ∑ b ∈ Finset.range J, ∑ k : Fin 512, Real.exp (sc (512 * b + k.val) - M) * vv (512 * b + k.val)

theorem Den_rescale (sc : ℕ → ℝ) (M M' : ℝ) (J : ℕ) : Real.exp (M - M') * Den sc M J = Den sc M' J := by
  unfold Den
  rw [Finset.mul_sum]
  refine Finset.sum_congr rfl fun b _ => ?_
  rw [Finset.mul_sum]
  refine Finset.sum_congr rfl fun k _ => ?_
  rw [← Real.exp_add]; congr 1; ring

theorem Num_rescale (sc vv : ℕ → ℝ) (M M' : ℝ) (J : ℕ) : Real.exp (M - M') * Num sc vv M J = Num sc vv M' J := by
  unfold Num
  rw [Finset.mul_sum]
  refine Finset.sum_congr rfl fun b _ => ?_
  rw [Finset.mul_sum]
  refine Finset.sum_congr rfl fun k _ => ?_
  rw [← mul_assoc, ← Real.exp_add]; congr 2; ring

theorem Den_succ (sc : ℕ → ℝ) (M : ℝ) (J : ℕ) :
    Den sc M (J + 1) = Den sc M J + ∑ k : Fin 512, Real.exp (sc (512 * J + k.val) - M) :=
  Finset.sum_range_succ _ _

theorem Num_succ (sc vv : ℕ → ℝ) (M : ℝ) (J : ℕ) :
    Num sc vv M (J + 1) = Num sc vv M J + ∑ k : Fin 512, Real.exp (sc (512 * J + k.val) - M) * vv (512 * J + k.val) :=
  Finset.sum_range_succ _ _

/-- The sum block by block over eight blocks of 512 keys is the sum over the 4096 keys. -/
theorem sum_blocks (g : ℕ → ℝ) :
    ∑ b ∈ Finset.range 8, ∑ k : Fin 512, g (512 * b + k.val) = ∑ k' : Fin 4096, g k'.val := by
  rw [Finset.sum_range (fun b => ∑ k : Fin 512, g (512 * b + k.val))]
  rw [← Fintype.sum_prod_type' (fun (b : Fin 8) (k : Fin 512) => g (512 * b.val + k.val))]
  rw [← (finProdFinEquiv (m := 8) (n := 512)).sum_comp (fun k' : Fin (8 * 512) => g k'.val)]
  refine Finset.sum_congr rfl fun x _ => ?_
  simp only [finProdFinEquiv_apply_val]
  rw [Nat.add_comm]

/-! ## The state of one row, one column -/

/-- The softmax of the scores applied to the values: what both programs compute for one row and one column. -/
def target (sc vv : ℕ → ℝ) : ℝ :=
  (∑ k : Fin 4096, Real.exp (sc k.val) * vv k.val) / (∑ k : Fin 4096, Real.exp (sc k.val))

/-- After `J` blocks the running maximum `m` is some real `M`, and the running normalizer `l` and running
    weighted sum `a` are the sums over those blocks with the scores shifted by that `M`. -/
def RowInv (sc vv : ℕ → ℝ) (J : ℕ) (m l a : EReal) : Prop :=
  ∃ M : ℝ, m = (M : EReal) ∧ l = ((Den sc M J : ℝ) : EReal) ∧ a = ((Num sc vv M J : ℝ) : EReal)

/-- The first block, from the state `(-∞, 0, 0)`: the new maximum is real, the factor `exp (-∞ - M')` is zero. -/
theorem RowInv.first {sc vv : ℕ → ℝ} (s v : Fin 512 → EReal)
    (hs : ∀ k, s k = ((sc (512 * 0 + k.val) : ℝ) : EReal)) (hv : ∀ k, v k = ((vv (512 * 0 + k.val) : ℝ) : EReal)) :
    RowInv sc vv 1 (max ⊥ (Finset.univ.fold max ⊥ s))
      (Ideal.exp (⊥ - max ⊥ (Finset.univ.fold max ⊥ s)) * 0 + ∑ k, Ideal.exp (s k - max ⊥ (Finset.univ.fold max ⊥ s)))
      (Ideal.exp (⊥ - max ⊥ (Finset.univ.fold max ⊥ s)) * 0
        + ∑ k, Ideal.exp (s k - max ⊥ (Finset.univ.fold max ⊥ s)) * v k) := by
  obtain ⟨X, hX⟩ := fold_max_real Finset.univ ⟨(⟨0, by norm_num⟩ : Fin 512), Finset.mem_univ _⟩ s (fun k _ => ⟨_, hs k⟩)
  rw [hX, max_eq_right bot_le]
  refine ⟨X, rfl, ?_, ?_⟩
  · rw [mul_zero, zero_add, Den_succ]
    simp only [hs, exp_sub_coe]
    rw [coe_sum]
    simp [Den]
  · rw [mul_zero, zero_add, Num_succ]
    simp only [hs, hv, exp_sub_coe, ← EReal.coe_mul]
    rw [coe_sum]
    simp [Num]

/-- One more block: the maximum stays real, and the two sums are rescaled to the new maximum and extended. -/
theorem RowInv.step {sc vv : ℕ → ℝ} {J : ℕ} {m l a : EReal} (h : RowInv sc vv J m l a) (s v : Fin 512 → EReal)
    (hs : ∀ k, s k = ((sc (512 * J + k.val) : ℝ) : EReal)) (hv : ∀ k, v k = ((vv (512 * J + k.val) : ℝ) : EReal)) :
    RowInv sc vv (J + 1) (max m (Finset.univ.fold max ⊥ s))
      (Ideal.exp (m - max m (Finset.univ.fold max ⊥ s)) * l + ∑ k, Ideal.exp (s k - max m (Finset.univ.fold max ⊥ s)))
      (Ideal.exp (m - max m (Finset.univ.fold max ⊥ s)) * a
        + ∑ k, Ideal.exp (s k - max m (Finset.univ.fold max ⊥ s)) * v k) := by
  obtain ⟨M, rfl, rfl, rfl⟩ := h
  obtain ⟨X, hX⟩ := fold_max_real Finset.univ ⟨(⟨0, by norm_num⟩ : Fin 512), Finset.mem_univ _⟩ s (fun k _ => ⟨_, hs k⟩)
  have hmax : max (M : EReal) (X : EReal) = ((max M X : ℝ) : EReal) :=
    (EReal.coe_strictMono.monotone.map_max).symm
  rw [hX, hmax]
  refine ⟨max M X, rfl, ?_, ?_⟩
  · simp only [hs, exp_sub_coe]
    rw [coe_sum, ← EReal.coe_mul, ← EReal.coe_add, Den_rescale, Den_succ]
  · simp only [hs, hv, exp_sub_coe, ← EReal.coe_mul]
    rw [coe_sum, ← EReal.coe_add, Num_rescale, Num_succ]

/-- After the eighth block the quotient of the two sums is the softmax-weighted sum: the shift cancels. -/
theorem RowInv.final {sc vv : ℕ → ℝ} {m l a : EReal} (h : RowInv sc vv 8 m l a) :
    Ideal.div a l = ((target sc vv : ℝ) : EReal) := by
  obtain ⟨M, -, rfl, rfl⟩ := h
  have hD : Den sc M 8 = Real.exp (0 - M) * ∑ k : Fin 4096, Real.exp (sc k.val) := by
    rw [← Den_rescale sc 0 M 8]; congr 1
    unfold Den; rw [sum_blocks (fun i => Real.exp (sc i - 0))]; simp
  have hN : Num sc vv M 8 = Real.exp (0 - M) * ∑ k : Fin 4096, Real.exp (sc k.val) * vv k.val := by
    rw [← Num_rescale sc vv 0 M 8]; congr 1
    unfold Num; rw [sum_blocks (fun i => Real.exp (sc i - 0) * vv i)]; simp
  have hpos : 0 < ∑ k : Fin 4096, Real.exp (sc k.val) :=
    Finset.sum_pos (fun k _ => Real.exp_pos _) ⟨(⟨0, by norm_num⟩ : Fin 4096), Finset.mem_univ _⟩
  have hne : Den sc M 8 ≠ 0 := by rw [hD]; exact mul_ne_zero (Real.exp_ne_zero _) hpos.ne'
  rw [Ideal.div_coe hne, ← EReal.coe_mul, EReal.coe_eq_coe_iff]
  unfold target
  rw [hD, hN, mul_one_div, mul_div_mul_left _ _ (Real.exp_ne_zero _)]

/-- The reference's form for one row and column: every key's weight `exp (s - M0) / (z + ∑ exp (s - M0))`, with a real
    shift `M0` and `z = 0`, times its value, summed over the keys. -/
theorem ref_row (sc vv : ℕ → ℝ) (M0 : ℝ) (z : EReal) (hz : z = 0) :
    ∑ k : Fin 4096, Ideal.div (Ideal.exp (((sc k.val : ℝ) : EReal) - (M0 : EReal)))
        (z + ∑ k' : Fin 4096, Ideal.exp (((sc k'.val : ℝ) : EReal) - (M0 : EReal))) * ((vv k.val : ℝ) : EReal)
      = ((target sc vv : ℝ) : EReal) := by
  subst hz
  simp only [exp_sub_coe]
  rw [zero_add, coe_sum]
  have hpos : 0 < ∑ k : Fin 4096, Real.exp (sc k.val - M0) :=
    Finset.sum_pos (fun k _ => Real.exp_pos _) ⟨(⟨0, by norm_num⟩ : Fin 4096), Finset.mem_univ _⟩
  simp only [Ideal.div_coe hpos.ne', ← EReal.coe_mul]
  rw [coe_sum, EReal.coe_eq_coe_iff]
  unfold target
  have e : ∀ k : Fin 4096, Real.exp (sc k.val - M0) = Real.exp (0 - M0) * Real.exp (sc k.val) := fun k => by
    rw [← Real.exp_add]; congr 1; ring
  simp only [e]
  rw [← Finset.mul_sum, Finset.sum_div]
  refine Finset.sum_congr rfl fun k _ => ?_
  field_simp

end Cert.Attention

end
-- ==== Proof.Spec.lean ====
/-
  The specification: attention of 4096 queries over 4096 keys, as ONE function of the three argument arrays.

  For queries `x0` and keys `x1` (arrays [1, 4096, 1024]) and values `x2` (array [4096, 1024]) whose entries are real
  numbers, entry (R, d) of the result is

      ∑ over keys k of  softmax_k (score R ·) * x2 (k, d),        score R k = ∑ e, x0 (0, R, e) * x1 (0, k, e),

  written here as `target` of the scores of row `R` and of column `d` of the values (Softmax.lean).  Keys are
  numbered by natural numbers below 4096 (`key` reads a natural number as a key, modulo 4096), so that key `k` of key
  block `b` is key number `512 * b + k`.
-/
import proofs.«119746_j52862457480037_2_alg».proof.Proof.Softmax
import Idealize.ShloMosaic.Lib.ValueIdx

noncomputable section

namespace Cert.Attention

open Idealize.ShloMosaic Idealize.ShloMosaic.ValueIdx

/-- The shape of the query and key arrays, and of the value and result arrays. -/
abbrev SQ : Shape := ⟨3, ![1, 4096, 1024]⟩
abbrev SV : Shape := ⟨2, ![4096, 1024]⟩

/-- A natural number read as a key. -/
def key (kk : ℕ) : Fin 4096 := ⟨kk % 4096, Nat.mod_lt _ (by norm_num)⟩

theorem key_of_lt {kk : ℕ} (h : kk < 4096) : key kk = ⟨kk, h⟩ := Fin.ext (Nat.mod_eq_of_lt h)

theorem key_val (k : Fin 4096) : key k.val = k := key_of_lt k.isLt

/-- Every entry is a real number (neither infinity). -/
def Finite {s : Shape} (x : s.Idx → EReal) : Prop := ∀ i, x i ≠ ⊤ ∧ x i ≠ ⊥

theorem Finite.coe {s : Shape} {x : s.Idx → EReal} (h : Finite x) (i : s.Idx) : x i = (((x i).toReal : ℝ) : EReal) :=
  (EReal.coe_toReal (h i).1 (h i).2).symm

/-- The real score of query row `R` against key number `kk`. -/
def scoreR (x0 x1 : SQ.Idx → EReal) (R : Fin 4096) (kk : ℕ) : ℝ :=
  ∑ e : Fin 1024, (x0 (ix3 (0 : Fin 1) R e)).toReal * (x1 (ix3 (0 : Fin 1) (key kk) e)).toReal

/-- The real value of key number `kk` in column `d`. -/
def valR (x2 : SV.Idx → EReal) (d : Fin 1024) (kk : ℕ) : ℝ := (x2 (ix2 (key kk) d)).toReal

/-- The result array: entry (R, d) is the softmax of row `R`'s scores applied to column `d` of the values. -/
def G (x0 x1 : SQ.Idx → EReal) (x2 : SV.Idx → EReal) : SV.Idx → EReal :=
  fun i => ((target (scoreR x0 x1 (i 0)) (valR x2 (i 1)) : ℝ) : EReal)

theorem G_apply (x0 x1 : SQ.Idx → EReal) (x2 : SV.Idx → EReal) (R : Fin 4096) (d : Fin 1024) :
    G x0 x1 x2 (ix2 R d) = ((target (scoreR x0 x1 R) (valR x2 d) : ℝ) : EReal) := rfl

/-- Over real entries the extended-real score is the real score. -/
theorem score_coe {x0 x1 : SQ.Idx → EReal} (h0 : Finite x0) (h1 : Finite x1) (R k : Fin 4096) :
    ∑ e : Fin 1024, x0 (ix3 (0 : Fin 1) R e) * x1 (ix3 (0 : Fin 1) k e) = ((scoreR x0 x1 R k.val : ℝ) : EReal) := by
  unfold scoreR
  rw [← coe_sum, key_val]
  refine Finset.sum_congr rfl fun e _ => ?_
  rw [EReal.coe_mul, ← h0.coe, ← h1.coe]

/-- The same with the key given by its number. -/
theorem score_coe' {x0 x1 : SQ.Idx → EReal} (h0 : Finite x0) (h1 : Finite x1) (R : Fin 4096) (kk : ℕ) :
    ∑ e : Fin 1024, x0 (ix3 (0 : Fin 1) R e) * x1 (ix3 (0 : Fin 1) (key kk) e) = ((scoreR x0 x1 R kk : ℝ) : EReal) := by
  unfold scoreR
  rw [← coe_sum]
  refine Finset.sum_congr rfl fun e _ => ?_
  rw [EReal.coe_mul, ← h0.coe, ← h1.coe]

theorem val_coe' {x2 : SV.Idx → EReal} (h2 : Finite x2) (kk : ℕ) (d : Fin 1024) :
    x2 (ix2 (key kk) d) = ((valR x2 d kk : ℝ) : EReal) := by
  unfold valR; rw [← h2.coe]

theorem val_coe {x2 : SV.Idx → EReal} (h2 : Finite x2) (k : Fin 4096) (d : Fin 1024) :
    x2 (ix2 k d) = ((valR x2 d k.val : ℝ) : EReal) := by
  unfold valR; rw [key_val, ← h2.coe]

end Cert.Attention

end
-- ==== Proof.FiniteInputs.lean ====
/-
  The precondition says every entry of the three argument arrays is a real number.  It is stated as: for each array,
  the conjunction over all entries of `|x| < +∞` is true, and the three conjunctions are all true.  An extended real
  whose absolute value `max x (-x)` is below `+∞` is neither infinity.
-/
import proofs.«119746_j52862457480037_2_alg».proof.Pre_finite_inputs
import proofs.«119746_j52862457480037_2_alg».proof.Proof.Gen.Pre_finite_inputs
import proofs.«119746_j52862457480037_2_alg».proof.Proof.Spec
import Idealize.ShloMosaic.Lib.ReduceAll
import Idealize.ShloMosaic.Lib.ValueIdx
import Idealize.ShloMosaic.PureOps.Ideal.Laws

noncomputable section

namespace Cert.Attention

open Idealize.ShloMosaic

instance : Subsingleton Cert.Pre_finite_inputs.S_.Idx := ⟨fun a b => funext fun d => d.elim0⟩

/-- `|x| < +∞`, as the comparison's truth value, makes `x` a real number. -/
theorem real_of_abs_lt (x : EReal) (h : Ideal.cmp .olt (max x (-x)) (Ideal.ofBits .f32 0x7F800000#32) = 1#1) :
    x ≠ ⊤ ∧ x ≠ ⊥ := by
  rw [ofBits_pos_inf] at h
  induction x using EReal.rec with
  | bot => simp [Ideal.cmp] at h
  | coe r => exact ⟨EReal.coe_ne_top r, EReal.coe_ne_bot r⟩
  | top => simp [Ideal.cmp] at h

/-- The printed precondition, true, gives real entries in all three arrays. -/
theorem finite_of_pre (a0 a1 : SQ.Idx → EReal) (a2 : SV.Idx → EReal)
    (h : Cert.Pre_finite_inputs.fn (F := Ideal) a0 a1 a2 = fun _ => 1#1) : Finite a0 ∧ Finite a1 ∧ Finite a2 := by
  have h' := congrFun h ValueIdx.ix0
  dsimp only [Cert.Pre_finite_inputs.fn] at h'
  obtain ⟨h01, h2⟩ := IntOp.andi_eq_one.mp h'
  obtain ⟨h0, h1⟩ := IntOp.andi_eq_one.mp h01
  refine ⟨fun i => ?_, fun i => ?_, fun i => ?_⟩
  · exact real_of_abs_lt _ (Host.reduce_andi_all _ _ _ _ _ h0 i)
  · exact real_of_abs_lt _ (Host.reduce_andi_all _ _ _ _ _ h1 i)
  · exact real_of_abs_lt _ (Host.reduce_andi_all _ _ _ _ _ h2 i)

end Cert.Attention

end
-- ==== Proof.RefRow.lean ====
/-
  The reference computes the specification.  Its program is: scores (a product of queries and keys), their row maximum,
  the exponentials of the scores less that maximum, their row sum, the quotient, and the product with the values.  Read
  at an index (R, d) this is, for each key k, `exp (score R k - M R) / (0 + ∑ k', exp (score R k' - M R))` times the
  value (k, d), summed over the keys, where `M R = max (-∞) (max over k of score R k)`.  Over real entries the scores are
  real, so `M R` is real (a maximum of 4096 real numbers), and the expression is the softmax-weighted sum of
  Softmax.lean whatever that real number is.
-/
import proofs.«119746_j52862457480037_2_alg».proof.Defs
import proofs.«119746_j52862457480037_2_alg».proof.Proof.Gen.ReferenceIdeal.Run
import proofs.«119746_j52862457480037_2_alg».proof.Proof.Gen.ReferenceIdeal.Read
import proofs.«119746_j52862457480037_2_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.Attention

variable (x0 x1 : SQ.Idx → EReal) (x2 : SV.Idx → EReal)

/-- The scores: entry (0, R, k) of the first product is the real score of row `R` against key `k`. -/
theorem v0_at (h0 : Finite x0) (h1 : Finite x1) (R k : Fin 4096) :
    val_main_v0 (F := Ideal) x0 x1 (ix3 (0 : Fin 1) R k) = ((scoreR x0 x1 R k.val : ℝ) : EReal) := by
  rw [val_main_v0_apply]
  refine Eq.trans ?_ (score_coe h0 h1 R k)
  refine Finset.sum_congr rfl fun e _ => ?_
  have el : lidx_main_v0 (ix3 (0 : Fin 1) R k) e = ix3 (0 : Fin 1) R e :=
    funext fun a => by match a with | ⟨0, _⟩ => rfl | ⟨1, _⟩ => rfl | ⟨2, _⟩ => rfl
  have er : ridx_main_v0 (ix3 (0 : Fin 1) R k) e = ix3 (0 : Fin 1) k e :=
    funext fun a => by match a with | ⟨0, _⟩ => rfl | ⟨1, _⟩ => rfl | ⟨2, _⟩ => rfl
  rw [el, er]

/-- Inserting a key coordinate into a row index of the scores gives (0, R, k). -/
theorem redLift (h : S1x4096x4096.Reduces [2] S1x4096) (R k : Fin 4096) :
    h.lift (ix2 (0 : Fin 1) R) k = ix3 (0 : Fin 1) R k :=
  funext fun a => Fin.ext (by match a with | ⟨0, _⟩ => rfl | ⟨1, _⟩ => rfl | ⟨2, _⟩ => rfl)

/-- The row maximum of an array of real scores, started from `-∞`, is a real number. -/
theorem rowmax_real (y : S1x4096x4096.Idx → EReal) (R : Fin 4096) (f : Fin 4096 → ℝ)
    (hy : ∀ k : Fin 4096, y (ix3 (0 : Fin 1) R k) = ((f k : ℝ) : EReal)) :
    ∃ X : ℝ, Host.reduce (FloatOps.maximumf (F := Ideal) (φ := .f32)) y (val_main_cst (F := Ideal))
      reducesTo_S1x4096x4096_S1x4096_d2 h_S_ (ix2 (0 : Fin 1) R) = (X : EReal) := by
  have hred : S1x4096x4096.Reduces [2] S1x4096 := by decide
  obtain ⟨X, hX⟩ := fold_max_real (Finset.univ : Finset (Fin 4096)) ⟨(⟨0, by norm_num⟩ : Fin 4096), Finset.mem_univ _⟩
    (fun k => ((f k : ℝ) : EReal)) (fun k _ => ⟨_, rfl⟩)
  refine ⟨X, ?_⟩
  refine (Host.reduce_eq_fold_single (α := Ideal .f32) (s := S1x4096x4096) (t := S1x4096) (u := S_)
    (FloatOps.maximumf (F := Ideal) (φ := .f32)) y (val_main_cst (F := Ideal) : S_.Idx → Ideal .f32)
    reducesTo_S1x4096x4096_S1x4096_d2 hred h_S_ (ix2 (0 : Fin 1) R)).trans ?_
  have efun : (y ∘ hred.lift (ix2 (0 : Fin 1) R)) = fun k : Fin 4096 => ((f k : ℝ) : EReal) :=
    funext fun k => (congrArg y (redLift hred R k)).trans (hy k)
  have einit : (val_main_cst (F := Ideal) : S_.Idx → Ideal .f32) (Shape.Idx.first h_S_) = (⊥ : EReal) := ofBits_neg_inf
  rw [efun, einit]
  exact hX

/-- The shift the reference subtracts from row `R`'s scores is a real number. -/
theorem v3_real (h0 : Finite x0) (h1 : Finite x1) (R : Fin 4096) :
    ∃ M0 : ℝ, val_main_v3 (F := Ideal) x0 x1 (ix2 (0 : Fin 1) R) = (M0 : EReal) := by
  obtain ⟨X, hX⟩ := rowmax_real (val_main_v0 (F := Ideal) x0 x1) R (fun k => scoreR x0 x1 R k.val)
    (fun k => v0_at x0 x1 h0 h1 R k)
  refine ⟨X, ?_⟩
  rw [val_main_v3_apply, val_main_v2_apply, val_main_cst_0_apply]
  unfold val_main_v1
  rw [hX]
  show max (Ideal.ofBits .f32 0xFF800000#32) (X : EReal) = X
  rw [ofBits_neg_inf]; exact max_eq_right bot_le

/-- The exponentials. -/
theorem v7_at (h0 : Finite x0) (h1 : Finite x1) (R k : Fin 4096) :
    val_main_v7 (F := Ideal) x0 x1 (ix3 (0 : Fin 1) R k)
      = Ideal.exp (((scoreR x0 x1 R k.val : ℝ) : EReal) - val_main_v3 (F := Ideal) x0 x1 (ix2 (0 : Fin 1) R)) := by
  have ei : idx_main_v4 (idx_main_v5 (ix3 (0 : Fin 1) R k)) = ix2 (0 : Fin 1) R :=
    funext fun a => by match a with | ⟨0, _⟩ => rfl | ⟨1, _⟩ => rfl
  rw [val_main_v7_apply, val_main_v6_apply, val_main_v5_apply, val_main_v4_apply, v0_at x0 x1 h0 h1, ei]
  generalize val_main_v3 (F := Ideal) x0 x1 (ix2 (0 : Fin 1) R) = z
  rfl

/-- The normalizer spread over the row: zero plus the sum of the row's exponentials. -/
theorem v10_at (R k : Fin 4096) :
    val_main_v10 (F := Ideal) x0 x1 (ix3 (0 : Fin 1) R k)
      = Ideal.ofBits .f32 0x00000000#32 + ∑ k' : Fin 4096, val_main_v7 (F := Ideal) x0 x1 (ix3 (0 : Fin 1) R k') := by
  rw [val_main_v10_apply, val_main_v9_apply, val_main_v8_apply, val_main_cst_1_apply]
  refine congrArg (Ideal.ofBits .f32 0x00000000#32 + ·) (Finset.sum_congr rfl fun k' _ => ?_)
  refine congrArg (val_main_v7 (F := Ideal) x0 x1) (funext fun a => ?_)
  match a with | ⟨0, _⟩ => rfl | ⟨1, _⟩ => rfl | ⟨2, _⟩ => rfl

/-- The weights as a matrix: entry (R, k) is the quotient at (0, R, k). -/
theorem v12_at (R k : Fin 4096) :
    val_main_v12 (F := Ideal) x0 x1 (ix2 R k)
      = Ideal.div (val_main_v7 (F := Ideal) x0 x1 (ix3 (0 : Fin 1) R k)) (val_main_v10 (F := Ideal) x0 x1 (ix3 (0 : Fin 1) R k)) := by
  rw [val_main_v12_apply]
  have ei : idx_main_v12 (ix2 R k) = ix3 (0 : Fin 1) R k := funext fun a => Fin.ext (by
    have hR := R.isLt
    have hk := k.isLt
    match a with
    | ⟨0, _⟩ => rfl
    | ⟨1, _⟩ => show (R.val * 4096 + k.val) / 4096 % 4096 = R.val; omega
    | ⟨2, _⟩ => show (R.val * 4096 + k.val) % 4096 = k.val; omega)
  rw [ei, val_main_v11_apply]
  generalize val_main_v7 (F := Ideal) x0 x1 (ix3 (0 : Fin 1) R k) = p
  generalize val_main_v10 (F := Ideal) x0 x1 (ix3 (0 : Fin 1) R k) = q
  rfl

/-- The reference's result array is the specification's, when every entry of the arguments is real. -/
theorem ref_eq (h0 : Finite x0) (h1 : Finite x1) (h2 : Finite x2) :
    val_main_v13 (F := Ideal) x0 x1 x2 = G x0 x1 x2 := by
  funext i
  obtain ⟨R, d, rfl⟩ : ∃ (R : Fin 4096) (d : Fin 1024), i = ix2 R d := ⟨i 0, i 1, eq_ix2 i⟩
  rw [val_main_v13_apply, G_apply]
  obtain ⟨M0, hM0⟩ := v3_real x0 x1 h0 h1 R
  rw [← ref_row (scoreR x0 x1 R) (valR x2 d) M0 (Ideal.ofBits .f32 0x00000000#32) ofBits_zero]
  refine Finset.sum_congr rfl fun k _ => ?_
  have el : lidx_main_v13 (ix2 R d) k = ix2 R k := funext fun a => by match a with | ⟨0, _⟩ => rfl | ⟨1, _⟩ => rfl
  have er : ridx_main_v13 (ix2 R d) k = ix2 k d := funext fun a => by match a with | ⟨0, _⟩ => rfl | ⟨1, _⟩ => rfl
  rw [el, er, v12_at, v10_at, val_coe h2 k d]
  simp only [v7_at x0 x1 h0 h1, hM0]

end Cert.ReferenceIdeal.RefValue

end
-- ==== Proof.KernelPieces.lean ====
/-
  What the body leaves behind at a grid point, as pure functions of what it read.  The body keeps three quantities in
  scratch memory across the key blocks of one query block: the running row maximum, the running normalizer and the
  running weighted sum.  At the first key block it first resets them (to -∞, 0, 0) and then updates them; at the
  other key blocks it updates what the block before left; at the last key block it also divides the weighted sum by
  the normalizer and stores the quotient into the output block.  Each lemma below says which update formula (a payload
  of the body's skeleton) ends up in which buffer in which case.
-/
import proofs.«119746_j52862457480037_2_alg».proof.Defs
import proofs.«119746_j52862457480037_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## First key block: the state is reset, then updated -/

/-- First key block: the running maximum, from the reset value. -/
theorem sout_A_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond0_0 i) (hc1 : ¬cond0_1 i) (x0 x1 x2 : Vec F S512x1024 .f32) :
    sout0_A_0 c i arg2 harg2 arg3 harg3 arg4 harg4 arg5 harg5 arg6 harg6 arg7 harg7 arg8 harg8 hc0 hc1 x0 x1 x2 = k0_pay2 (k0_pay8 x0 x1 k0_pay4) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg2.read_unread, harg3.read_unread, harg4.read_unread,
    View.ld_unit_zero (S := S512x1024) hz, View.ld_unit_zero (S := S512x1) hz,
    View.readCov_unit_zero (S := S512x1) _ hz, View.readCov_unit_zero (S := S512x1024) _ hz]

/-- First key block: the running normalizer, from the reset values. -/
theorem sout_A_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond0_0 i) (hc1 : ¬cond0_1 i) (x0 x1 x2 : Vec F S512x1024 .f32) :
    sout0_A_1 c i arg2 harg2 arg3 harg3 arg4 harg4 arg5 harg5 arg6 harg6 arg7 harg7 arg8 harg8 hc0 hc1 x0 x1 x2 = k0_pay11 x0 x1 k0_pay4 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg2.read_unread, harg3.read_unread, harg4.read_unread,
    View.ld_unit_zero (S := S512x1024) hz, View.ld_unit_zero (S := S512x1) hz,
    View.readCov_unit_zero (S := S512x1) _ hz, View.readCov_unit_zero (S := S512x1024) _ hz]

/-- First key block: the running weighted sum, from the reset values. -/
theorem sout_A_2 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond0_0 i) (hc1 : ¬cond0_1 i) (x0 x1 x2 : Vec F S512x1024 .f32) :
    sout0_A_2 c i arg2 harg2 arg3 harg3 arg4 harg4 arg5 harg5 arg6 harg6 arg7 harg7 arg8 harg8 hc0 hc1 x0 x1 x2 = k0_pay1 (k0_pay12 x0 x1 x2 k0_pay4 k0_pay4 k0_pay6) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1024) hz]
  simp only [View.readAt_eq_ld, harg2.read_unread, harg3.read_unread, harg4.read_unread,
    View.ld_unit_zero (S := S512x1024) hz, View.ld_unit_zero (S := S512x1) hz,
    View.readCov_unit_zero (S := S512x1) _ hz, View.readCov_unit_zero (S := S512x1024) _ hz]

/-! ## A middle key block: the state the block before left is updated -/

/-- Case B: the running maximum left in the first scratch. -/
theorem sout_B_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : ¬cond0_1 i) (x0 x1 x2 : Vec F S512x1024 .f32) (xs0 xs1 : Vec F S512x1 .f32) (xs2 : Vec F S512x1024 .f32) :
    sout0_B_0 c i arg2 harg2 arg3 harg3 arg4 harg4 arg5 harg5 arg6 harg6 arg7 harg7 arg8 harg8 hc0 hc1 x0 x1 x2 xs0 xs1 xs2 = k0_pay2 (k0_pay8 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread,
    harg8.read_unread, View.ld_unit_zero (S := S512x1024) hz, View.ld_unit_zero (S := S512x1) hz]

/-- Case B: the running normalizer left in the second scratch. -/
theorem sout_B_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : ¬cond0_1 i) (x0 x1 x2 : Vec F S512x1024 .f32) (xs0 xs1 : Vec F S512x1 .f32) (xs2 : Vec F S512x1024 .f32) :
    sout0_B_1 c i arg2 harg2 arg3 harg3 arg4 harg4 arg5 harg5 arg6 harg6 arg7 harg7 arg8 harg8 hc0 hc1 x0 x1 x2 xs0 xs1 xs2 = k0_pay11 x0 x1 xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread,
    harg8.read_unread, View.ld_unit_zero (S := S512x1024) hz, View.ld_unit_zero (S := S512x1) hz]

/-- Case B: the running weighted sum left in the third scratch. -/
theorem sout_B_2 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : ¬cond0_1 i) (x0 x1 x2 : Vec F S512x1024 .f32) (xs0 xs1 : Vec F S512x1 .f32) (xs2 : Vec F S512x1024 .f32) :
    sout0_B_2 c i arg2 harg2 arg3 harg3 arg4 harg4 arg5 harg5 arg6 harg6 arg7 harg7 arg8 harg8 hc0 hc1 x0 x1 x2 xs0 xs1 xs2 = k0_pay1 (k0_pay12 x0 x1 x2 xs0 xs0 xs2) := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread,
    harg8.read_unread, View.ld_unit_zero (S := S512x1024) hz, View.ld_unit_zero (S := S512x1) hz]

/-! ## The last key block: updated, then the quotient goes to the output block -/

/-- Case C: the running maximum left in the first scratch. -/
theorem sout_C_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i) (x0 x1 x2 : Vec F S512x1024 .f32) (xs0 xs1 : Vec F S512x1 .f32) (xs2 : Vec F S512x1024 .f32) :
    sout0_C_0 c i arg2 harg2 arg3 harg3 arg4 harg4 arg5 harg5 arg6 harg6 arg7 harg7 arg8 harg8 hc0 hc1 x0 x1 x2 xs0 xs1 xs2 = k0_pay2 (k0_pay8 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread,
    harg8.read_unread, View.ld_unit_zero (S := S512x1024) hz, View.ld_unit_zero (S := S512x1) hz]

/-- Case C: the running normalizer left in the second scratch. -/
theorem sout_C_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i) (x0 x1 x2 : Vec F S512x1024 .f32) (xs0 xs1 : Vec F S512x1 .f32) (xs2 : Vec F S512x1024 .f32) :
    sout0_C_1 c i arg2 harg2 arg3 harg3 arg4 harg4 arg5 harg5 arg6 harg6 arg7 harg7 arg8 harg8 hc0 hc1 x0 x1 x2 xs0 xs1 xs2 = k0_pay11 x0 x1 xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread,
    harg8.read_unread, View.ld_unit_zero (S := S512x1024) hz, View.ld_unit_zero (S := S512x1) hz]

/-- Case C: the running weighted sum left in the third scratch. -/
theorem sout_C_2 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i) (x0 x1 x2 : Vec F S512x1024 .f32) (xs0 xs1 : Vec F S512x1 .f32) (xs2 : Vec F S512x1024 .f32) :
    sout0_C_2 c i arg2 harg2 arg3 harg3 arg4 harg4 arg5 harg5 arg6 harg6 arg7 harg7 arg8 harg8 hc0 hc1 x0 x1 x2 xs0 xs1 xs2 = k0_pay1 (k0_pay12 x0 x1 x2 xs0 xs0 xs2) := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread,
    harg8.read_unread, View.ld_unit_zero (S := S512x1024) hz, View.ld_unit_zero (S := S512x1) hz]

/-- Last key block: the output block holds the updated weighted sum divided by the updated normalizer. -/
theorem out_C_3 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i) (x0 x1 x2 : Vec F S512x1024 .f32) (xs0 xs1 : Vec F S512x1 .f32) (xs2 : Vec F S512x1024 .f32) :
    out0_C_3 c i arg2 harg2 arg3 harg3 arg4 harg4 arg5 harg5 arg6 harg6 arg7 harg7 arg8 harg8 hc0 hc1 x0 x1 x2 xs0 xs1 xs2
      = k0_pay3 (k0_pay1 (k0_pay12 x0 x1 x2 xs0 xs0 xs2)) (k0_pay11 x0 x1 xs0 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread,
    harg8.read_unread, View.ld_unit_zero (S := S512x1024) hz, View.ld_unit_zero (S := S512x1) hz,
    View.readCov_unit_zero (S := S512x1) _ hz, View.readCov_unit_zero (S := S512x1024) _ hz]

end Cert.KernelIdeal.Pieces

end
-- ==== Proof.LibKeepdims.lean ====
/-
  Two layout operations of a sum taken with the reduced axis kept, read at an index.  A vector of length a viewed as
  a column [a, 1] holds, at (i, 0), the vector's entry i; a column [a, 1] broadcast along a new second axis to [a, b]
  holds, at (i, c), the column's entry (i, 0).  Together they say that a row-wise quantity, kept as a column and
  spread over a block, is read at (i, c) as the quantity of row i.
-/
import Idealize.ShloMosaic.Lib.Pipeline.Value
import Idealize.ShloMosaic.Lib.ValueIdx

namespace Idealize.ShloMosaic.ValueIdx

variable {α : Type}

/-- A vector [a] cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, c), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KernelRow.lean ====
/-
  The body's update formulas read at an index, over the extended reals.  For a block of 512 query rows `x0`, a block of
  512 key rows `x1` and a block of 512 value rows `x2` (each row 1024 long), and the state the block before left —
  the row maxima `xs0`, the normalizers `xs1` (columns of height 512) and the weighted sums `xs2` —:

    score r k  = ∑ e, x0 (r, e) * x1 (k, e)                                      the product of the two blocks,
    m' r       = max (xs0 r) (max over k of score r k)                           the new row maximum,
    α r        = exp (xs0 r - m' r),     p r k = exp (score r k - m' r),
    l' r       = α r * xs1 r + ∑ k, p r k                                        the new normalizer,
    a' (r, d)  = α r * xs2 (r, d) + ∑ k, p r k * x2 (k, d)                       the new weighted sum,
    out (r, d) = a (r, d) / l r                                                  the final quotient.

  A change of float format is the identity on extended reals, so the rounding of `p` and of the values before the
  second product does not appear.
-/
import proofs.«119746_j52862457480037_2_alg».proof.Defs
import proofs.«119746_j52862457480037_2_alg».proof.Proof.Gen.KernelIdeal.Skeleton
import proofs.«119746_j52862457480037_2_alg».proof.Proof.LibKeepdims
import proofs.«119746_j52862457480037_2_alg».proof.Proof.Softmax
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Row

open Cert.KernelIdeal Cert.KernelIdeal.Gen Cert.Attention

/-- The score of query row `r` against key row `k` of two blocks. -/
def blockScore (x0 x1 : Vec Ideal S512x1024 .f32) (r k : Fin 512) : EReal :=
  ∑ e : Fin 1024, (x0 (ix2 r e) : EReal) * (x1 (ix2 k e) : EReal)

/-- Inserting the key coordinate into a row index of the score block gives the pair (row, key). -/
theorem lift_eq (r k : Fin 512) : reduces_S512x512_S512.lift (ix1 r) k = ix2 r k :=
  funext fun a => Fin.ext (by match a with | ⟨0, _⟩ => rfl | ⟨1, _⟩ => rfl)

/-! ## Where the two products read their operands -/

theorem lhs7_0 (i : S512x512.Idx) (q : dot_S512x1024_S512x1024_S512x512_1_1_0_0_n_n.contr.Idx) : (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs7_1 (i : S512x512.Idx) (q : dot_S512x1024_S512x1024_S512x512_1_1_0_0_n_n.contr.Idx) : (dot_S512x1024_S512x1024_S512x512_1_1_0_0_n_n.lhsIdx i q 1).val = (q ⟨0, by decide⟩).val :=
  dot_S512x1024_S512x1024_S512x512_1_1_0_0_n_n.lhsIdx_val_of_single rfl i q

theorem rhs7_0 (i : S512x512.Idx) (q : dot_S512x1024_S512x1024_S512x512_1_1_0_0_n_n.contr.Idx) : (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs7_1 (i : S512x512.Idx) (q : dot_S512x1024_S512x1024_S512x512_1_1_0_0_n_n.contr.Idx) : (dot_S512x1024_S512x1024_S512x512_1_1_0_0_n_n.rhsIdx i q 1).val = (q ⟨0, by decide⟩).val :=
  dot_S512x1024_S512x1024_S512x512_1_1_0_0_n_n.rhsIdx_val_of_single rfl i q

theorem lhs12_0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs12_1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q

theorem rhs12_0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem rhs12_1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The first product: entry (r, k) is the score of row `r` against key `k`. -/
theorem pay7_apply (x0 x1 : Vec Ideal S512x1024 .f32) (r k : Fin 512) :
    k0_pay7 (F := Ideal) x0 x1 (ix2 r k) = blockScore x0 x1 r k := by
  unfold k0_pay7 blockScore
  refine (Ideal.matmul_constant_zero_apply dot_S512x1024_S512x1024_S512x512_1_1_0_0_n_n (some .fp32) _ _ (ix2 r k)).trans ?_
  rw [← Equiv.sum_comp (contrEquiv1 dot_S512x1024_S512x1024_S512x512_1_1_0_0_n_n 1024 rfl rfl).symm]
  refine Finset.sum_congr rfl fun e _ => ?_
  have hk := contrEquiv1_symm_val dot_S512x1024_S512x1024_S512x512_1_1_0_0_n_n 1024 rfl rfl e
  have el : dot_S512x1024_S512x1024_S512x512_1_1_0_0_n_n.lhsIdx (ix2 r k) ((contrEquiv1 dot_S512x1024_S512x1024_S512x512_1_1_0_0_n_n 1024 rfl rfl).symm e) = ix2 r e := funext fun a => Fin.ext (by
    match a with
    | ⟨0, _⟩ => exact lhs7_0 _ _
    | ⟨1, _⟩ => exact (lhs7_1 _ _).trans hk)
  have er : dot_S512x1024_S512x1024_S512x512_1_1_0_0_n_n.rhsIdx (ix2 r k) ((contrEquiv1 dot_S512x1024_S512x1024_S512x512_1_1_0_0_n_n 1024 rfl rfl).symm e) = ix2 k e := funext fun a => Fin.ext (by
    match a with
    | ⟨0, _⟩ => exact rhs7_0 _ _
    | ⟨1, _⟩ => exact (rhs7_1 _ _).trans hk)
  rw [shapeCast_self, shapeCast_self, el, er]

/-- The new row maximum. -/
theorem pay8_apply (x0 x1 : Vec Ideal S512x1024 .f32) (xs0 : Vec Ideal S512x1 .f32) (r : Fin 512) (u : Fin 1) :
    k0_pay8 (F := Ideal) x0 x1 xs0 (ix2 r u)
      = max (xs0 (ix2 r u) : EReal) ((Finset.univ : Finset (Fin 512)).fold max ⊥ (fun k => blockScore x0 x1 r k)) := by
  unfold k0_pay8
  refine congrArg (max (xs0 (ix2 r u) : EReal)) ?_
  refine (shapeCast_a_a1_apply _ shapeCasts_S512_S512x1 r u).trans ?_
  refine (Ideal.multiReduction_maximumf_single (k0_pay7 x0 x1) 0xFF800000#32 reduces_S512x512_S512 (.inl rfl) rfl (ix1 r)).trans ?_
  rw [show FloatOps.ofBits (F := Ideal) .f32 0xFF800000#32 = (⊥ : EReal) from ofBits_neg_inf]
  refine congrArg (fun g => (Finset.univ : Finset (Fin 512)).fold max (⊥ : EReal) g) (funext fun k => ?_)
  exact (congrArg (k0_pay7 (F := Ideal) x0 x1) (lift_eq r k)).trans (pay7_apply x0 x1 r k)

/-- The factor that moves the old sums to the new maximum. -/
theorem pay9_apply (x0 x1 : Vec Ideal S512x1024 .f32) (xs0 xs0' : Vec Ideal S512x1 .f32) (r : Fin 512) (u : Fin 1) :
    k0_pay9 (F := Ideal) x0 x1 xs0 xs0' (ix2 r u) = Ideal.exp ((xs0' (ix2 r u) : EReal) - k0_pay8 (F := Ideal) x0 x1 xs0 (ix2 r u)) := rfl

/-- The exponentials of the block's scores against the new maximum. -/
theorem pay10_apply (x0 x1 : Vec Ideal S512x1024 .f32) (xs0 : Vec Ideal S512x1 .f32) (r k : Fin 512) :
    k0_pay10 (F := Ideal) x0 x1 xs0 (ix2 r k)
      = Ideal.exp (blockScore x0 x1 r k - k0_pay8 (F := Ideal) x0 x1 xs0 (ix2 r (0 : Fin 1))) := by
  unfold k0_pay10
  show Ideal.exp (k0_pay7 x0 x1 (ix2 r k) - broadcastTo S512x512 (k0_pay8 x0 x1 xs0) broadcasts_S512x1_S512x512 (ix2 r k)) = _
  rw [pay7_apply]
  exact congrArg (fun z => Ideal.exp (blockScore x0 x1 r k - z)) (broadcastTo_a1_ab_apply _ broadcasts_S512x1_S512x512 r k)

/-- The new normalizer. -/
theorem pay11_apply (x0 x1 : Vec Ideal S512x1024 .f32) (xs0 xs0' xs1 : Vec Ideal S512x1 .f32) (r : Fin 512) (u : Fin 1) :
    k0_pay11 (F := Ideal) x0 x1 xs0 xs0' xs1 (ix2 r u)
      = k0_pay9 (F := Ideal) x0 x1 xs0 xs0' (ix2 r u) * (xs1 (ix2 r u) : EReal)
        + ∑ k : Fin 512, k0_pay10 (F := Ideal) x0 x1 xs0 (ix2 r k) := by
  unfold k0_pay11
  rw [shapeCast_self]
  refine congrArg (k0_pay9 (F := Ideal) x0 x1 xs0 xs0' (ix2 r u) * (xs1 (ix2 r u) : EReal) + ·) ?_
  refine (shapeCast_a_a1_apply _ shapeCasts_S512_S512x1 r u).trans ?_
  refine (Ideal.multiReduction_add_single (k0_pay10 x0 x1 xs0) 0x00000000#32 reduces_S512x512_S512 (.inl rfl) rfl (ix1 r)).trans ?_
  exact Finset.sum_congr rfl fun k _ => congrArg (k0_pay10 (F := Ideal) x0 x1 xs0) (lift_eq r k)

/-- The new weighted sum. -/
theorem pay12_apply (x0 x1 x2 : Vec Ideal S512x1024 .f32) (xs0 xs0' : Vec Ideal S512x1 .f32) (xs2 : Vec Ideal S512x1024 .f32)
    (r : Fin 512) (d : Fin 1024) :
    k0_pay12 (F := Ideal) x0 x1 x2 xs0 xs0' xs2 (ix2 r d)
      = k0_pay9 (F := Ideal) x0 x1 xs0 xs0' (ix2 r (0 : Fin 1)) * (xs2 (ix2 r d) : EReal)
        + ∑ k : Fin 512, k0_pay10 (F := Ideal) x0 x1 xs0 (ix2 r k) * (x2 (ix2 k d) : EReal) := by
  unfold k0_pay12
  show broadcastTo S512x1024 (k0_pay9 x0 x1 xs0 xs0') broadcasts_S512x1_S512x1024 (ix2 r d) * (xs2 (ix2 r d) : EReal)
      + FloatOps.matmul dot_S512x512_S512x1024_S512x1024_1_0_0_1_n_n none (truncf .bf16 (k0_pay10 x0 x1 xs0) bitsLt_bf16_f32) (truncf .bf16 x2 bitsLt_bf16_f32)
          (constant S512x1024 .f32 0x00000000#32) (ix2 r d) = _
  rw [broadcastTo_a1_ab_apply _ broadcasts_S512x1_S512x1024 r d]
  refine congrArg (k0_pay9 (F := Ideal) x0 x1 xs0 xs0' (ix2 r (0 : Fin 1)) * (xs2 (ix2 r d) : EReal) + ·) ?_
  refine (Ideal.matmul_constant_zero_apply dot_S512x512_S512x1024_S512x1024_1_0_0_1_n_n none _ _ (ix2 r d)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r d) ((contrEquiv1 dot_S512x512_S512x1024_S512x1024_1_0_0_1_n_n 512 rfl rfl).symm k) = ix2 r k := funext fun a => Fin.ext (by
    match a with
    | ⟨0, _⟩ => exact lhs12_0 _ _
    | ⟨1, _⟩ => exact (lhs12_1 _ _).trans hk)
  have er : dot_S512x512_S512x1024_S512x1024_1_0_0_1_n_n.rhsIdx (ix2 r d) ((contrEquiv1 dot_S512x512_S512x1024_S512x1024_1_0_0_1_n_n 512 rfl rfl).symm k) = ix2 k d := funext fun a => Fin.ext (by
    match a with
    | ⟨0, _⟩ => exact (rhs12_0 _ _).trans hk
    | ⟨1, _⟩ => exact rhs12_1 _ _)
  rw [el, er]
  rfl

/-- The final quotient. -/
theorem pay3_apply (a : Vec Ideal S512x1024 .f32) (l : Vec Ideal S512x1 .f32) (r : Fin 512) (d : Fin 1024) :
    k0_pay3 (F := Ideal) a l (ix2 r d) = Ideal.div (a (ix2 r d) : EReal) (l (ix2 r (0 : Fin 1)) : EReal) := by
  unfold k0_pay3
  exact congrArg (Ideal.div (a (ix2 r d) : EReal)) (broadcastTo_a1_ab_apply _ broadcasts_S512x1_S512x1024 r d)

/-- A cast to the same shape changes nothing. -/
theorem pay1_eq (v : FVec Ideal S512x1024 .f32) : k0_pay1 (F := Ideal) v = v := shapeCast_self _ _
theorem pay2_eq (v : FVec Ideal S512x1 .f32) : k0_pay2 (F := Ideal) v = v := shapeCast_self _ _

/-- The reset values: `-∞` for the maximum, zero for the two sums. -/
theorem pay4_apply (j : S512x1.Idx) : (k0_pay4 (F := Ideal) j : EReal) = ⊥ := by
  unfold k0_pay4; rw [shapeCast_self]; exact ofBits_neg_inf
theorem pay5_apply (j : S512x1.Idx) : (k0_pay5 (F := Ideal) j : EReal) = 0 := by
  unfold k0_pay5; rw [shapeCast_self]; exact ofBits_zero
theorem pay6_apply (j : S512x1024.Idx) : (k0_pay6 (F := Ideal) j : EReal) = 0 := by
  unfold k0_pay6; rw [shapeCast_self]; exact ofBits_zero

end Cert.KernelIdeal.Row

end
-- ==== Proof.KernelState.lean ====
/-
  The state the kernel carries across the key blocks of one query block, at every grid point.

  The grid has 8 × 8 points; point number `n` works on query block `n / 8` and key block `n % 8`.  The query block is
  rows `512 * (n / 8) + r` of the queries, the key and value blocks are rows `512 * (n % 8) + k` of the keys and of the
  values.  After point `n`, for every row `r` of the query block and every column `d`, the three scratch buffers hold
  the running maximum, normalizer and weighted sum of the first `n % 8 + 1` key blocks (`RowInv`, Softmax.lean): at a
  first key block from the reset state, at the others from what the point before left.  At a last key block the output
  block holds the quotient, which is the specification's value.
-/
import proofs.«119746_j52862457480037_2_alg».proof.Defs
import proofs.«119746_j52862457480037_2_alg».proof.Proof.Gen.KernelIdeal.Frame
import proofs.«119746_j52862457480037_2_alg».proof.Proof.KernelPieces
import proofs.«119746_j52862457480037_2_alg».proof.Proof.KernelRow
import proofs.«119746_j52862457480037_2_alg».proof.Proof.Spec
import Idealize.ShloMosaic.Lib.Pipeline.Value
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.State

open Cert.KernelIdeal Cert.KernelIdeal.Gen Cert.KernelIdeal.Pieces Cert.KernelIdeal.Row Cert.Attention

variable (m : (ℓ : Loc nD τ sig) → Buf (Elt Ideal) ℓ)

/-- The three argument arrays as launched. -/
abbrev A0 (c : Dev nD) : SQ.Idx → EReal := m ((c : Thread nD τ).loc main_arg0)
abbrev A1 (c : Dev nD) : SQ.Idx → EReal := m ((c : Thread nD τ).loc main_arg1)
abbrev A2 (c : Dev nD) : SV.Idx → EReal := m ((c : Thread nD τ).loc main_arg2)

/-! ## Per row: the three cases over variable blocks -/

section Rows
variable (x0 x1 x2 : Vec Ideal S512x1024 .f32) (xs0 xs1 : Vec Ideal S512x1 .f32) (xs2 : Vec Ideal S512x1024 .f32)
  (sc vv : ℕ → ℝ) (r : Fin 512) (d : Fin 1024)

/-- First key block: from the reset state. -/
theorem row_first
    (hs : ∀ k : Fin 512, blockScore x0 x1 r k = ((sc (512 * 0 + k.val) : ℝ) : EReal))
    (hv : ∀ k : Fin 512, (x2 (ix2 k d) : EReal) = ((vv (512 * 0 + k.val) : ℝ) : EReal)) :
    RowInv sc vv 1 (k0_pay2 (F := Ideal) (k0_pay8 x0 x1 (k0_pay4 (F := Ideal))) (ix2 r (0 : Fin 1)))
      (k0_pay11 (F := Ideal) x0 x1 (k0_pay4 (F := Ideal)) (k0_pay4 (F := Ideal)) (k0_pay5 (F := Ideal)) (ix2 r (0 : Fin 1)))
      (k0_pay1 (F := Ideal) (k0_pay12 x0 x1 x2 (k0_pay4 (F := Ideal)) (k0_pay4 (F := Ideal)) (k0_pay6 (F := Ideal))) (ix2 r d)) := by
  rw [pay2_eq, pay1_eq, pay11_apply, pay12_apply]
  simp only [pay9_apply, pay10_apply, pay8_apply, pay4_apply, pay5_apply, pay6_apply]
  exact RowInv.first (fun k => blockScore x0 x1 r k) (fun k => (x2 (ix2 k d) : EReal)) hs hv

/-- Another key block: from the state the block before left. -/
theorem row_step (J : ℕ)
    (hs : ∀ k : Fin 512, blockScore x0 x1 r k = ((sc (512 * J + k.val) : ℝ) : EReal))
    (hv : ∀ k : Fin 512, (x2 (ix2 k d) : EReal) = ((vv (512 * J + k.val) : ℝ) : EReal))
    (h : RowInv sc vv J (xs0 (ix2 r (0 : Fin 1))) (xs1 (ix2 r (0 : Fin 1))) (xs2 (ix2 r d))) :
    RowInv sc vv (J + 1) (k0_pay2 (F := Ideal) (k0_pay8 x0 x1 xs0) (ix2 r (0 : Fin 1)))
      (k0_pay11 (F := Ideal) x0 x1 xs0 xs0 xs1 (ix2 r (0 : Fin 1)))
      (k0_pay1 (F := Ideal) (k0_pay12 x0 x1 x2 xs0 xs0 xs2) (ix2 r d)) := by
  rw [pay2_eq, pay1_eq, pay11_apply, pay12_apply]
  simp only [pay9_apply, pay10_apply, pay8_apply]
  exact RowInv.step h (fun k => blockScore x0 x1 r k) (fun k => (x2 (ix2 k d) : EReal)) hs hv

/-- The eighth key block: the quotient stored into the output block is the softmax-weighted sum. -/
theorem row_final
    (hs : ∀ k : Fin 512, blockScore x0 x1 r k = ((sc (512 * 7 + k.val) : ℝ) : EReal))
    (hv : ∀ k : Fin 512, (x2 (ix2 k d) : EReal) = ((vv (512 * 7 + k.val) : ℝ) : EReal))
    (h : RowInv sc vv 7 (xs0 (ix2 r (0 : Fin 1))) (xs1 (ix2 r (0 : Fin 1))) (xs2 (ix2 r d))) :
    k0_pay3 (F := Ideal) (k0_pay1 (F := Ideal) (k0_pay12 x0 x1 x2 xs0 xs0 xs2)) (k0_pay11 (F := Ideal) x0 x1 xs0 xs0 xs1) (ix2 r d)
      = ((target sc vv : ℝ) : EReal) := by
  rw [pay3_apply]
  exact RowInv.final (row_step x0 x1 x2 xs0 xs1 xs2 sc vv r d 7 hs hv h)

end Rows

/-! ## The blocks the windows read -/

/-- The index maps, decided over the grid: the query and output blocks follow `n / 8`, the key and value blocks `n % 8`. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

/-- The region finds the queries and the keys with their leading unit axis dropped. -/
theorem V_v0 (c : Dev nD) :
    (V m c main_v0 : S4096x1024.Idx → EReal) = shapeCast S4096x1024 (A0 m c) shapeCasts_S1x4096x1024_S4096x1024 := by
  dsimp only [Gen.V, Gen.hostOps0]; after_results; rfl

theorem V_v1 (c : Dev nD) :
    (V m c main_v1 : S4096x1024.Idx → EReal) = shapeCast S4096x1024 (A1 m c) shapeCasts_S1x4096x1024_S4096x1024 := by
  dsimp only [Gen.V, Gen.hostOps0]; after_results; rfl

/-- The query block at point `t`: rows `512 * (t / 8) + r` of the queries. -/
theorem blk0 (c : Dev nD) (t : Fin cfg0.N) (r : Fin 512) (e : Fin 1024) :
    (iblk m c 0 t : Vec Ideal S512x1024 .f32) (ix2 r e) = A0 m c (ix3 (0 : Fin 1) (key (512 * (t.val / 8) + r.val)) e) := by
  have hN : t.val < 64 := lt_of_lt_of_eq t.isLt N_0
  obtain ⟨e0, e1, -⟩ := idx_facts t
  have hr := r.isLt
  have hrow : 512 * (t.val / 8) + r.val < 4096 := by omega
  rw [key_of_lt hrow]
  unfold iblk
  rw [View.read_apply]
  show V m c main_v0 _ = _
  refine (congrFun (V_v0 m c) _).trans ?_
  refine Eq.trans ?_ (shapeCast_1ab_ab_apply (A0 m c) shapeCasts_S1x4096x1024_S4096x1024 ⟨_, hrow⟩ e)
  refine congrArg _ (funext fun a => Fin.ext ?_)
  match a with
  | ⟨0, _⟩ => show win0_0.index t (0 : Fin 2) * 512 + 1 * r.val = 512 * (t.val / 8) + r.val; omega
  | ⟨1, _⟩ => show win0_0.index t (1 : Fin 2) * 1024 + 1 * e.val = e.val; omega

/-- The key block at point `t`: rows `512 * (t % 8) + k` of the keys. -/
theorem blk1 (c : Dev nD) (t : Fin cfg0.N) (k : Fin 512) (e : Fin 1024) :
    (iblk m c 1 t : Vec Ideal S512x1024 .f32) (ix2 k e) = A1 m c (ix3 (0 : Fin 1) (key (512 * (t.val % 8) + k.val)) e) := by
  have hN : t.val < 64 := lt_of_lt_of_eq t.isLt N_0
  obtain ⟨-, -, e0, e1, -⟩ := idx_facts t
  have hk := k.isLt
  have hrow : 512 * (t.val % 8) + k.val < 4096 := by omega
  rw [key_of_lt hrow]
  unfold iblk
  rw [View.read_apply]
  show V m c main_v1 _ = _
  refine (congrFun (V_v1 m c) _).trans ?_
  refine Eq.trans ?_ (shapeCast_1ab_ab_apply (A1 m c) shapeCasts_S1x4096x1024_S4096x1024 ⟨_, hrow⟩ e)
  refine congrArg _ (funext fun a => Fin.ext ?_)
  match a with
  | ⟨0, _⟩ => show win0_1.index t (0 : Fin 2) * 512 + 1 * k.val = 512 * (t.val % 8) + k.val; omega
  | ⟨1, _⟩ => show win0_1.index t (1 : Fin 2) * 1024 + 1 * e.val = e.val; omega

/-- The value block at point `t`: rows `512 * (t % 8) + k` of the values. -/
theorem blk2 (c : Dev nD) (t : Fin cfg0.N) (k : Fin 512) (d : Fin 1024) :
    (iblk m c 2 t : Vec Ideal S512x1024 .f32) (ix2 k d) = A2 m c (ix2 (key (512 * (t.val % 8) + k.val)) d) := by
  have hN : t.val < 64 := lt_of_lt_of_eq t.isLt N_0
  obtain ⟨-, -, -, -, e0, e1, -⟩ := idx_facts t
  have hk := k.isLt
  have hrow : 512 * (t.val % 8) + k.val < 4096 := by omega
  rw [key_of_lt hrow]
  unfold iblk
  rw [View.read_apply]
  show V m c main_arg2 _ = _
  refine (congrFun (V_main_arg2 m c) _).trans ?_
  refine congrArg _ (funext fun a => Fin.ext ?_)
  match a with
  | ⟨0, _⟩ => show win0_2.index t (0 : Fin 2) * 512 + 1 * k.val = 512 * (t.val % 8) + k.val; omega
  | ⟨1, _⟩ => show win0_2.index t (1 : Fin 2) * 1024 + 1 * d.val = d.val; omega

/-! ## The scores and values of a query block's row, over real entries -/

/-- The real scores of row `r` of query block `q` against every key, and the real values of column `d`. -/
def rowScore (c : Dev nD) (q : ℕ) (r : Fin 512) : ℕ → ℝ := scoreR (A0 m c) (A1 m c) (key (512 * q + r.val))
def colVal (c : Dev nD) (d : Fin 1024) : ℕ → ℝ := valR (A2 m c) d

variable {m}

theorem blockScore_eq {c : Dev nD} (h0 : Finite (A0 m c)) (h1 : Finite (A1 m c)) (t : Fin cfg0.N) (r k : Fin 512) :
    blockScore (iblk m c 0 t) (iblk m c 1 t) r k = ((rowScore m c (t.val / 8) r (512 * (t.val % 8) + k.val) : ℝ) : EReal) := by
  unfold blockScore rowScore
  refine Eq.trans ?_ (score_coe' h0 h1 _ _)
  refine Finset.sum_congr rfl fun e _ => ?_
  rw [blk0 m c t r e, blk1 m c t k e]

theorem blockVal_eq {c : Dev nD} (h2 : Finite (A2 m c)) (t : Fin cfg0.N) (k : Fin 512) (d : Fin 1024) :
    ((iblk m c 2 t : Vec Ideal S512x1024 .f32) (ix2 k d) : EReal) = ((colVal m c d (512 * (t.val % 8) + k.val) : ℝ) : EReal) := by
  unfold colVal
  rw [blk2 m c t k d]
  exact val_coe' h2 _ _

variable (m)

/-! ## The invariant -/

/-- After point `n`: every row and column of the query block `n / 8` is in the state of `n % 8 + 1` key blocks. -/
def StateAt (c : Dev nD) (n : ℕ) (hn : n < cfg0.N) : Prop :=
  ∀ (r : Fin 512) (d : Fin 1024),
    RowInv (rowScore m c (n / 8) r) (colVal m c d) (n % 8 + 1)
      ((outsAt0 m c n hn).2.1 (ix2 r (0 : Fin 1))) ((outsAt0 m c n hn).2.2.1 (ix2 r (0 : Fin 1)))
      ((outsAt0 m c n hn).2.2.2 (ix2 r d))

variable {m}

/-- At a first key block. -/
theorem stateA {c : Dev nD} (h0 : Finite (A0 m c)) (h1 : Finite (A1 m c)) (h2 : Finite (A2 m c)) (t : Fin cfg0.N)
    (hz : t.val % 8 = 0) : StateAt m c t.val t.isLt := by
  intro r d
  have h7 : ¬t.val % 8 = 7 := by omega
  rw [outsAt0_A m c t hz h7]
  dsimp only
  rw [sout_A_0, sout_A_1, sout_A_2, hz]
  refine row_first (iblk m c 0 t) (iblk m c 1 t) (iblk m c 2 t) _ _ r d (fun k => ?_) (fun k => ?_)
  · rw [blockScore_eq h0 h1 t r k, hz]
  · rw [blockVal_eq h2 t k d, hz]

/-- At another key block, from the point before. -/
theorem stateBC {c : Dev nD} (h0 : Finite (A0 m c)) (h1 : Finite (A1 m c)) (h2 : Finite (A2 m c)) (t : Fin cfg0.N)
    (hz : ¬t.val % 8 = 0) (ih : StateAt m c (t.val - 1) (Nat.lt_of_le_of_lt (Nat.sub_le _ _) t.isLt)) :
    StateAt m c t.val t.isLt := by
  intro r d
  have e1 : (t.val - 1) / 8 = t.val / 8 := by omega
  have e2 : (t.val - 1) % 8 + 1 = t.val % 8 := by omega
  have ih' := ih r d
  rw [e1, e2] at ih'
  by_cases h7 : t.val % 8 = 7
  · rw [outsAt0_C m c t hz h7]
    dsimp only
    rw [sout_C_0, sout_C_1, sout_C_2]
    exact row_step (iblk m c 0 t) (iblk m c 1 t) (iblk m c 2 t) _ _ _ _ _ r d (t.val % 8)
      (fun k => blockScore_eq h0 h1 t r k) (fun k => blockVal_eq h2 t k d) ih'
  · rw [outsAt0_B m c t hz h7]
    dsimp only
    rw [sout_B_0, sout_B_1, sout_B_2]
    exact row_step (iblk m c 0 t) (iblk m c 1 t) (iblk m c 2 t) _ _ _ _ _ r d (t.val % 8)
      (fun k => blockScore_eq h0 h1 t r k) (fun k => blockVal_eq h2 t k d) ih'

/-- At every point, by induction on its number. -/
theorem stateAt {c : Dev nD} (h0 : Finite (A0 m c)) (h1 : Finite (A1 m c)) (h2 : Finite (A2 m c)) :
    ∀ (n : ℕ) (hn : n < cfg0.N), StateAt m c n hn := by
  intro n
  induction n with
  | zero => intro hn; exact stateA h0 h1 h2 ⟨0, hn⟩ rfl
  | succ n ih =>
    intro hn
    by_cases hz : (n + 1) % 8 = 0
    · exact stateA h0 h1 h2 ⟨n + 1, hn⟩ hz
    · exact stateBC h0 h1 h2 ⟨n + 1, hn⟩ hz (ih (Nat.lt_of_succ_lt hn))

/-- At a last key block the output block holds the specification's values of its rows. -/
theorem out_last {c : Dev nD} (h0 : Finite (A0 m c)) (h1 : Finite (A1 m c)) (h2 : Finite (A2 m c)) (t : Fin cfg0.N)
    (h7 : t.val % 8 = 7) (r : Fin 512) (d : Fin 1024) :
    (outsAt0 m c t.val t.isLt).1 (ix2 r d) = ((target (rowScore m c (t.val / 8) r) (colVal m c d) : ℝ) : EReal) := by
  have hz : ¬t.val % 8 = 0 := by omega
  have e1 : (t.val - 1) / 8 = t.val / 8 := by omega
  have e2 : (t.val - 1) % 8 + 1 = 7 := by omega
  have ih' := stateAt h0 h1 h2 (t.val - 1) (Nat.lt_of_le_of_lt (Nat.sub_le _ _) t.isLt) r d
  rw [e1, e2] at ih'
  rw [outsAt0_C m c t hz h7]
  dsimp only
  rw [out_C_3]
  refine row_final (iblk m c 0 t) (iblk m c 1 t) (iblk m c 2 t) _ _ _ _ _ r d (fun k => ?_) (fun k => ?_) ih'
  · rw [blockScore_eq h0 h1 t r k, h7]
  · rw [blockVal_eq h2 t k d, h7]

end Cert.KernelIdeal.State

end
-- ==== Proof.KernelFinal.lean ====
/-
  From the grid points to the result array.  Only the points of a last key block (`t % 8 = 7`) write the output block
  back, and what point `t` writes back is rows `512 * (t / 8) + r` of the specification's array.  Every row `R` lies in
  the block of point `8 * (R / 512) + 7`, so these blocks cover the array, and the array after the run is the
  specification's.
-/
import proofs.«119746_j52862457480037_2_alg».proof.Proof.KernelState
import proofs.«119746_j52862457480037_2_alg».proof.Proof.Gen.KernelIdeal.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.State Cert.Attention

variable {m : (ℓ : Loc nD τ sig) → Buf (Elt Ideal) ℓ}

/-- What a point of a last key block writes back is its block of the specification's array. -/
theorem flushed_eq {c : Dev nD} (h0 : Finite (A0 m c)) (h1 : Finite (A1 m c)) (h2 : Finite (A2 m c)) (t : Fin cfg0.N)
    (hf : (cfg0.win 3).flush t = true) :
    (dats m 0 c).flushed 3 t = ((cfg0.win 3).blk t).view.read (Elt Ideal) (G (A0 m c) (A1 m c) (A2 m c)) := by
  have h7 : t.val % 8 = 7 := (flush0_3 t).mp hf
  have hN : t.val < 64 := lt_of_lt_of_eq t.isLt N_0
  obtain ⟨-, -, -, -, -, -, e0, e1⟩ := idx_facts t
  rw [Cert.KernelIdeal.Value.flushed3 m c t]
  funext j
  show (outsAt0 m c t.val t.isLt).1 j = G (A0 m c) (A1 m c) (A2 m c) (((cfg0.win 3).blk t).view.emb j)
  obtain ⟨r, d, rfl⟩ : ∃ (r : Fin 512) (d : Fin 1024), j = ix2 r d := ⟨j 0, j 1, eq_ix2 j⟩
  rw [out_last h0 h1 h2 t h7 r d]
  have hr := r.isLt
  have hrow : 512 * (t.val / 8) + r.val < 4096 := by omega
  have hemb : ((cfg0.win 3).blk t).view.emb (ix2 r d) = ix2 (key (512 * (t.val / 8) + r.val)) d := by
    rw [key_of_lt hrow]
    funext a; apply Fin.ext
    match a with
    | ⟨0, _⟩ => show win0_3.index t (0 : Fin 2) * 512 + 1 * r.val = 512 * (t.val / 8) + r.val; omega
    | ⟨1, _⟩ => show win0_3.index t (1 : Fin 2) * 1024 + 1 * d.val = d.val; omega
  rw [hemb, G_apply]
  rfl

/-- An index of the result array is in point `t`'s block iff each coordinate is in the block's range. -/
theorem mem_blk (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2).slice (win0_3.rect t)).set ↔ _
  rw [View.set_slice_whole, Rect.mem_set_unit]
  exact Iff.rfl

/-- Every index is in the block of the last-key-block point of its query block. -/
theorem cover (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 64 := N_0
  obtain ⟨t, ht⟩ : ∃ t : Fin cfg0.N, t.val = 8 * ((i 0).val / 512) + 7 := ⟨⟨8 * ((i 0).val / 512) + 7, by rw [hN]; omega⟩, rfl⟩
  obtain ⟨-, -, -, -, -, -, e0, e1⟩ := idx_facts t
  refine ⟨t, (flush0_3 t).mpr (by omega), ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- The result array after the run is the specification's. -/
theorem final {c : Dev nD} (h0 : Finite (A0 m c)) (h1 : Finite (A1 m c)) (h2 : Finite (A2 m c)) :
    (dats m 0 c).arrAt 3 cfg0.N = G (A0 m c) (A1 m c) (A2 m c) :=
  (dats m 0 c).arrAt_eq_of_cover 3 (G (A0 m c) (A1 m c) (A2 m c)) (fun t hf => flushed_eq h0 h1 h2 t hf) cover

variable (m)

/-- The run: the result array at the specification of the argument arrays, the arguments unchanged. -/
theorem run (ρ : Dev nD → PrngReg) (hfin : ∀ c : Dev nD, Finite (A0 m c) ∧ Finite (A1 m c) ∧ Finite (A2 m c)) :
    θ_run defs (onTc (τ := τ) (main (F := Ideal))) ⟨m, fun _ => 0, ρ⟩ fun r => ∀ c : Dev nD,
      r.2.mem ((c : Thread nD τ).loc main_v2) = G (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final (hfin c).1 (hfin c).2.1 (hfin c).2.2), (h c).2⟩)
    (Cert.KernelIdeal.Value.run_blocks m ρ)

end Cert.KernelIdeal.Final

end
-- ==== Proof.lean ====
/-
  Attention computed block by block with a running softmax against attention computed in one piece.

  The kernel walks an 8 × 8 grid: for each block of 512 queries it visits the eight blocks of 512 keys in turn, keeping
  for every query row a running maximum of the scores seen so far, the sum of the exponentials of the scores less that
  maximum, and the same sum weighted by the values; when the maximum grows, the two sums are multiplied by the
  exponential of the difference.  After the eighth key block it divides the weighted sum by the plain sum.  The
  reference forms all 4096 × 4096 scores, subtracts each row's maximum, exponentiates, divides by the row sums and
  multiplies by the values.  Over real inputs both are the softmax of each row's scores applied to the values: a
  softmax does not depend on the number subtracted from the scores, as long as it is a real number (Softmax.lean),
  and the precondition makes every input, hence every score and every maximum, real (FiniteInputs.lean).  The roundings
  to bf16 before the kernel's second product are the identity on extended reals.

  The kernel's side: KernelPieces.lean (which formula ends in which buffer), KernelRow.lean (the formulas at an index),
  KernelState.lean (the state after every grid point, by induction), KernelFinal.lean (the result array).  The
  reference's side: RefRow.lean.  The ideal pass rewrote nothing, so the idealization claim is trivial.
-/
import proofs.«119746_j52862457480037_2_alg».proof.Defs
import proofs.«119746_j52862457480037_2_alg».proof.Proof.Gen.Kernel
import proofs.«119746_j52862457480037_2_alg».proof.Proof.Gen.Kernel.Frame
import proofs.«119746_j52862457480037_2_alg».proof.Proof.Gen.KernelIdeal
import proofs.«119746_j52862457480037_2_alg».proof.Proof.Gen.KernelIdeal.Frame
import proofs.«119746_j52862457480037_2_alg».proof.Proof.Gen.KernelIdeal.Value
import proofs.«119746_j52862457480037_2_alg».proof.Proof.Gen.ReferenceIdeal
import proofs.«119746_j52862457480037_2_alg».proof.Proof.Gen.ReferenceIdeal.Run
import proofs.«119746_j52862457480037_2_alg».proof.Proof.Gen.ReferenceIdeal.Read
import proofs.«119746_j52862457480037_2_alg».proof.Proof.Gen.Pre_finite_inputs
import proofs.«119746_j52862457480037_2_alg».proof.Proof.FiniteInputs
import proofs.«119746_j52862457480037_2_alg».proof.Proof.RefRow
import proofs.«119746_j52862457480037_2_alg».proof.Proof.KernelFinal
import Idealize.ShloMosaic.Adequacy
import Idealize.ShloMosaic.Init

noncomputable section

namespace Cert.Proof

open Idealize.ShloMosaic Idealize.SL.Sem Cert.Attention

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays are the specification's function of the argument arrays, which agree and are real. -/
theorem algebraic : Cert.algebraic_KernelIdeal_ReferenceIdeal := by
  intro m ρ m' ρ' hpre hagree
  have hfin : ∀ c : Dev Cert.KernelIdeal.nD, Finite (Cert.KernelIdeal.State.A0 m c) ∧ Finite (Cert.KernelIdeal.State.A1 m c)
      ∧ Finite (Cert.KernelIdeal.State.A2 m c) := fun c => finite_of_pre _ _ _ (hpre c)
  refine ⟨fun c => G (Cert.KernelIdeal.State.A0 m c) (Cert.KernelIdeal.State.A1 m c) (Cert.KernelIdeal.State.A2 m c),
    Cert.KernelIdeal.Final.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, (hagree c).1, (hagree c).2.1, (hagree c).2.2]
  exact Cert.ReferenceIdeal.RefValue.ref_eq _ _ _ (hfin c).1 (hfin c).2.1 (hfin c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
